-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3x300x25 : Shape := ⟨4, ![2048, 3, 300, 25]⟩
abbrev S2048 : Shape := ⟨1, ![2048]⟩
abbrev S_ : Shape := ⟨0, ![]⟩

class Facts : Prop where
  bcast_S_S2048x3x300x25 : S_.BroadcastsInDim S2048x3x300x25 (![] : Fin 0 → Fin S2048x3x300x25.rank)
  reducesTo_S2048x3x300x25_S_d0_1_2_3 : S2048x3x300x25.ReducesTo [0, 1, 2, 3] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x3x300x25 .f32) (main_arg1 : FVec F S2048 .f32) : IVec S_ 1 :=
  let main_v0 : FVec F S2048x3x300x25 .f32 := Host.absf main_arg0
  let main_cst : FVec F S_ .f32 := constant S_ .f32 0x7F800000#32
  let main_v1 : FVec F S2048x3x300x25 .f32 := broadcastInDim S2048x3x300x25 ![] bcast_S_S2048x3x300x25 main_cst
  let main_v2 : IVec S2048x3x300x25 1 := cmpf .olt main_v0 main_v1
  let main_c : IVec S_ 1 := constantI S_ 1 1#1
  let main_v3 : IVec S_ 1 := (fun x v => Host.reduce IntOp.andi x v reducesTo_S2048x3x300x25_S_d0_1_2_3 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S2048x3x300x25 : Shape := ⟨4, ![2048, 3, 300, 25]⟩
abbrev S2048 : Shape := ⟨1, ![2048]⟩
abbrev S2048x1 : Shape := ⟨2, ![2048, 1]⟩
abbrev S64x3x300x25 : Shape := ⟨4, ![64, 3, 300, 25]⟩
abbrev S64x1 : Shape := ⟨2, ![64, 1]⟩
abbrev S64x1x1 : Shape := ⟨3, ![64, 1, 1]⟩
abbrev S64x1x300x25 : Shape := ⟨4, ![64, 1, 300, 25]⟩
abbrev S64x300x25 : Shape := ⟨3, ![64, 300, 25]⟩

abbrev nBuf : Space → Nat
  | .hbm => 6
  | .vmem => 8
  | .smem => 0
  | _ => 0

abbrev bufTy : (tb : Table) → Fin (tcTables nBuf tb) → BufTy
  | .hbm, ⟨0, _⟩ => ⟨S2048x3x300x25, .f32⟩
  | .hbm, ⟨1, _⟩ => ⟨S2048, .f32⟩
  | .hbm, ⟨2, _⟩ => ⟨S2048x1, .f32⟩
  | .hbm, ⟨3, _⟩ => ⟨S2048x3x300x25, .f32⟩
  | .hbm, ⟨4, _⟩ => ⟨S2048x1, .f32⟩
  | .hbm, ⟨5, _⟩ => ⟨S2048, .f32⟩
  | .local _ .vmem, ⟨0, _⟩ => ⟨S64x3x300x25, .f32⟩
  | .local _ .vmem, ⟨1, _⟩ => ⟨S64x3x300x25, .f32⟩
  | .local _ .vmem, ⟨2, _⟩ => ⟨S64x1, .f32⟩
  | .local _ .vmem, ⟨3, _⟩ => ⟨S64x1, .f32⟩
  | .local _ .vmem, ⟨4, _⟩ => ⟨S64x3x300x25, .f32⟩
  | .local _ .vmem, ⟨5, _⟩ => ⟨S64x3x300x25, .f32⟩
  | .local _ .vmem, ⟨6, _⟩ => ⟨S64x1, .f32⟩
  | .local _ .vmem, ⟨7, _⟩ => ⟨S64x1, .f32⟩
  | _, _ => ⟨S2048x3x300x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3x300x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3x300x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S2048x1 : S2048.ShapeCasts S2048x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64x1x1 : S64x1.ShapeCasts S64x1x1
  inb_S64x3x300x25_S64x3x300x25_0_0_0_0 : ∀ a, (![0, 0, 0, 0] : Fin 4 → Nat) a + S64x3x300x25.size a ≤ S64x3x300x25.size a
  h_S64x3x300x25 : 0 < S64x3x300x25.numel
  slices_S64x3x300x25_o0_0_0_0_S64x1x300x25 : S64x3x300x25.Slices ![0, 0, 0, 0] S64x1x300x25
  shapeCasts_S64x1x300x25_S64x300x25 : S64x1x300x25.ShapeCasts S64x300x25
  slices_S64x3x300x25_o0_1_0_0_S64x1x300x25 : S64x3x300x25.Slices ![0, 1, 0, 0] S64x1x300x25
  slices_S64x3x300x25_o0_2_0_0_S64x1x300x25 : S64x3x300x25.Slices ![0, 2, 0, 0] S64x1x300x25
  broadcasts_S64x1x1_S64x300x25 : S64x1x1.Broadcasts S64x300x25
  inb_S64x3x300x25_S64x1x300x25_0_0_0_0 : ∀ a, (![0, 0, 0, 0] : Fin 4 → Nat) a + S64x1x300x25.size a ≤ S64x3x300x25.size a
  h_S64x1x300x25 : 0 < S64x1x300x25.numel
  shapeCasts_S64x300x25_S64x1x300x25 : S64x300x25.ShapeCasts S64x1x300x25
  inb_S64x3x300x25_S64x1x300x25_0_1_0_0 : ∀ a, (![0, 1, 0, 0] : Fin 4 → Nat) a + S64x1x300x25.size a ≤ S64x3x300x25.size a
  inb_S64x3x300x25_S64x1x300x25_0_2_0_0 : ∀ a, (![0, 2, 0, 0] : Fin 4 → Nat) a + S64x1x300x25.size a ≤ S64x3x300x25.size a
  shapeCasts_S2048x1_S2048 : S2048x1.ShapeCasts S2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3x300x25.size a ≤ S2048x3x300x25.size a
  hwx0_0 : ∀ i : grid0.Coords, EltTy.bits .f32 = 32 ∨ (Rect.block (s := S2048x3x300x25) S64x3x300x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S2048x1.size a
  hwx0_1 : ∀ i : grid0.Coords, EltTy.bits .f32 = 32 ∨ (Rect.block (s := S2048x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x3x300x25.size a ≤ S2048x3x300x25.size a
  hwx0_2 : ∀ i : grid0.Coords, EltTy.bits .f32 = 32 ∨ (Rect.block (s := S2048x3x300x25) S64x3x300x25.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S2048x1.size a
  hwx0_3 : ∀ i : grid0.Coords, EltTy.bits .f32 = 32 ∨ (Rect.block (s := S2048x1) S64x1.size (cc0_transform_3 i) (hinb0_3 i)).WholeWords (EltTy.packing .f32)

variable [Facts₀]

abbrev win0_0 : Pipeline.Window sig grid0 :=
  Pipeline.Window.ofSpec (Memref.whole main_arg0) S64x3x300x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S64x3x300x25.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x3x300x25 : Shape := ⟨4, ![2048, 3, 300, 25]⟩
abbrev S2048 : Shape := ⟨1, ![2048]⟩
abbrev S_ : Shape := ⟨0, ![]⟩
abbrev S2048x1x1 : Shape := ⟨3, ![2048, 1, 1]⟩
abbrev S2048x1x300x25 : Shape := ⟨4, ![2048, 1, 300, 25]⟩
abbrev S2048x300x25 : Shape := ⟨3, ![2048, 300, 25]⟩

abbrev nBuf : Space → Nat
  | .hbm => 30
  | .vmem => 0
  | .smem => 0
  | _ => 0

abbrev bufTy : (tb : Table) → Fin (tcTables nBuf tb) → BufTy
  | .hbm, ⟨0, _⟩ => ⟨S2048x3x300x25, .f32⟩
  | .hbm, ⟨1, _⟩ => ⟨S2048, .f32⟩
  | .hbm, ⟨2, _⟩ => ⟨S_, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048x1x1, .f32⟩
  | .hbm, ⟨7, _⟩ => ⟨S2048, .f32⟩
  | .hbm, ⟨8, _⟩ => ⟨S2048x1x1, .f32⟩
  | .hbm, ⟨9, _⟩ => ⟨S2048x1x300x25, .f32⟩
  | .hbm, ⟨10, _⟩ => ⟨S2048x300x25, .f32⟩
  | .hbm, ⟨11, _⟩ => ⟨S2048x1x300x25, .f32⟩
  | .hbm, ⟨12, _⟩ => ⟨S2048x300x25, .f32⟩
  | .hbm, ⟨13, _⟩ => ⟨S2048x1x300x25, .f32⟩
  | .hbm, ⟨14, _⟩ => ⟨S2048x300x25, .f32⟩
  | .hbm, ⟨15, _⟩ => ⟨S2048x300x25, .f32⟩
  | .hbm, ⟨16, _⟩ => ⟨S2048x300x25, .f32⟩
  | .hbm, ⟨17, _⟩ => ⟨S2048x300x25, .f32⟩
  | .hbm, ⟨18, _⟩ => ⟨S2048x300x25, .f32⟩
  | .hbm, ⟨19, _⟩ => ⟨S2048x300x25, .f32⟩
  | .hbm, ⟨20, _⟩ => ⟨S2048x300x25, .f32⟩
  | .hbm, ⟨21, _⟩ => ⟨S2048x300x25, .f32⟩
  | .hbm, ⟨22, _⟩ => ⟨S2048x300x25, .f32⟩
  | .hbm, ⟨23, _⟩ => ⟨S2048x300x25, .f32⟩
  | .hbm, ⟨24, _⟩ => ⟨S2048x300x25, .f32⟩
  | .hbm, ⟨25, _⟩ => ⟨S2048x300x25, .f32⟩
  | .hbm, ⟨26, _⟩ => ⟨S2048x1x300x25, .f32⟩
  | .hbm, ⟨27, _⟩ => ⟨S2048x1x300x25, .f32⟩
  | .hbm, ⟨28, _⟩ => ⟨S2048x1x300x25, .f32⟩
  | .hbm, ⟨29, _⟩ => ⟨S2048x3x300x25, .f32⟩
  | _, _ => ⟨S2048x3x300x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1x1_0 : S2048.BroadcastsInDim S2048x1x1 (![0] : Fin 1 → Fin S2048x1x1.rank)
  slices_S2048x3x300x25_S2048x1x300x25_0_0_0_0 : S2048x3x300x25.Slices ![0, 0, 0, 0] S2048x1x300x25
  shapeCasts_S2048x1x300x25_S2048x300x25 : S2048x1x300x25.ShapeCasts S2048x300x25
  slices_S2048x3x300x25_S2048x1x300x25_0_1_0_0 : S2048x3x300x25.Slices ![0, 1, 0, 0] S2048x1x300x25
  slices_S2048x3x300x25_S2048x1x300x25_0_2_0_0 : S2048x3x300x25.Slices ![0, 2, 0, 0] S2048x1x300x25
  bcast_S2048x1x1_S2048x300x25_0_1_2 : S2048x1x1.BroadcastsInDim S2048x300x25 (![0, 1, 2] : Fin 3 → Fin S2048x300x25.rank)
  bcast_S2048x300x25_S2048x1x300x25_0_2_3 : S2048x300x25.BroadcastsInDim S2048x1x300x25 (![0, 2, 3] : Fin 3 → Fin S2048x1x300x25.rank)
  concatenates_S2048x1x300x25_S2048x1x300x25_S2048x1x300x25_S2048x3x300x25_d1 : Shape.Concatenates [S2048x1x300x25, S2048x1x300x25, S2048x1x300x25] S2048x3x300x25 1

variable [Facts₀]

class Facts : Prop extends Facts₀ where

variable [Facts]
-- ==== Proof.RotationZ.lean ====
/-
  Rotation of a batch of point clouds about the third axis, on the extended reals.

  A batch holds, for each sample `b`, a cloud of 300 × 25 points given channel by channel: entry `(b, k, r, v)` is
  coordinate `k ∈ {0, 1, 2}` of the point `(r, v)` of sample `b`. Each sample comes with a number `α b`, a fraction of
  a full turn; its angle is `θ b = α b · τ`, where `τ` is the single-precision word nearest to 2π — kept as that word,
  since both programs multiply by the same one. The point `(p₀, p₁, p₂)` turned by `θ` about the third axis is

      (p₀ · cos θ + p₁ · sin θ,   (−p₀) · sin θ + p₁ · cos θ,   p₂).

  On the extended reals `cos` and `sin` are the real functions on the finite numbers and a fixed value at ±∞, one
  function for both programs, so nothing below asks the entries to be finite.
-/
import Idealize.ShloMosaic.PureOps.Ideal
import Idealize.ShloMosaic.Lib.ValueIdx

noncomputable section

namespace Cert.RotationZ

open Idealize.ShloMosaic Idealize.ShloMosaic.ValueIdx

/-- A sample's angle: its fraction `a` of a full turn times the single-precision 2π. -/
def turn (a : EReal) : EReal := a * Ideal.ofBits .f32 0x40C90FDB#32

/-- Coordinate `k` of the point `(p₀, p₁, p₂)` turned by `θ` about the third axis. -/
def rotated (p0 p1 p2 θ : EReal) (k : Nat) : EReal :=
  if k = 0 then p0 * Ideal.cos θ + p1 * Ideal.sin θ
  else if k = 1 then (-p0) * Ideal.sin θ + p1 * Ideal.cos θ
  else p2

theorem rotated_zero (p0 p1 p2 θ : EReal) : rotated p0 p1 p2 θ 0 = p0 * Ideal.cos θ + p1 * Ideal.sin θ := rfl
theorem rotated_one (p0 p1 p2 θ : EReal) : rotated p0 p1 p2 θ 1 = (-p0) * Ideal.sin θ + p1 * Ideal.cos θ := rfl
theorem rotated_two (p0 p1 p2 θ : EReal) : rotated p0 p1 p2 θ 2 = p2 := rfl

/-- Equal points, angles and coordinates give equal turned coordinates. -/
theorem rotated_congr {p0 p1 p2 θ q0 q1 q2 φ : EReal} {k l : Nat}
    (h0 : p0 = q0) (h1 : p1 = q1) (h2 : p2 = q2) (hθ : θ = φ) (hk : k = l) :
    rotated p0 p1 p2 θ k = rotated q0 q1 q2 φ l := by
  rw [h0, h1, h2, hθ, hk]

/-- A batch of `B` clouds, each turned by its own angle `θ b`: entry `(b, k, r, v)` is coordinate `k` of the point
    `(x[b,0,r,v], x[b,1,r,v], x[b,2,r,v])` turned by `θ b`. -/
def rotatedBatch {B : Nat} (x : (⟨4, ![B, 3, 300, 25]⟩ : Shape).Idx → EReal) (θ : Fin B → EReal) :
    (⟨4, ![B, 3, 300, 25]⟩ : Shape).Idx → EReal :=
  fun i => rotated (x (ix4 (i 0) (0 : Fin 3) (i 2) (i 3))) (x (ix4 (i 0) (1 : Fin 3) (i 2) (i 3)))
    (x (ix4 (i 0) (2 : Fin 3) (i 2) (i 3))) (θ (i 0)) (i 1).val

/-- The turned batch at the entry `(b, k, r, v)`. -/
theorem rotatedBatch_apply {B : Nat} (x : (⟨4, ![B, 3, 300, 25]⟩ : Shape).Idx → EReal) (θ : Fin B → EReal)
    (b : Fin B) (k : Fin 3) (r : Fin 300) (v : Fin 25) :
    rotatedBatch x θ (ix4 b k r v)
      = rotated (x (ix4 b (0 : Fin 3) r v)) (x (ix4 b (1 : Fin 3) r v)) (x (ix4 b (2 : Fin 3) r v)) (θ b) k.val := rfl

end Cert.RotationZ

end
-- ==== Proof.BodyValue.lean ====
/-
  What the kernel body leaves in its two output tiles.

  At one grid point the body holds a tile of 64 samples: the tile `x` of the batch (64 × 3 × 300 × 25) and the tile `α`
  of the fractions of a turn (64 × 1). It forms each sample's angle `α·τ` (which is also the second output tile), its
  cosine and sine as 64 × 1 × 1 columns laid along the 300 × 25 points, cuts `x` into its three channels
  `p₀, p₁, p₂`, and stores `p₀·c + p₁·s`, `(0 − p₀)·s + p₁·c` and `p₂` through the three channel slabs of the output
  tile. Since `0 − p = −p` for every extended real `p`, each store's value at `(b, 0, r, v)` is one coordinate of the
  point `(r, v)` of sample `b` turned by that sample's angle; the three slabs tile the output tile, so the tile the body
  leaves is the turned tile.
-/
import proofs.«180987_j38079180046915_1_alg».proof.Proof.Gen.KernelIdeal.Frame
import proofs.«180987_j38079180046915_1_alg».proof.Proof.RotationZ
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen
open Idealize.ShloMosaic Idealize.ShloMosaic.ValueIdx Cert.RotationZ

variable (x0 : Vec Ideal S64x3x300x25 .f32) (x1 : Vec Ideal S64x1 .f32)

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-! ## The angle, its cosine and its sine -/

/-- The samples' angles: each fraction of a turn times the single-precision 2π. -/
theorem angle_apply (y : S64x1.Idx) : k0_pay1 x1 y = turn (x1 y) := by
  unfold k0_pay1
  simp only [shapeCast_self]
  rfl

/-- The cosine column at sample `b`. -/
theorem cos_apply (b : Fin 64) :
    k0_pay2 x1 (ix3 b (0 : Fin 1) (0 : Fin 1)) = Ideal.cos (turn (x1 (ix2 b (0 : Fin 1)))) := by
  unfold k0_pay2
  refine (shapeCast_apply _ _ (ix3 b (0 : Fin 1) (0 : Fin 1)) (ix2 b (0 : Fin 1)) ?_).trans ?_
  · rewrite [Shape.rowMajor_val_two, Shape.rowMajor_val_three]
    show b.val * 1 + 0 = (b.val * 1 + 0) * 1 + 0
    omega
  · show Ideal.cos (k0_pay1 x1 (ix2 b (0 : Fin 1))) = _
    rw [angle_apply]

/-- The sine column at sample `b`. -/
theorem sin_apply (b : Fin 64) :
    k0_pay3 x1 (ix3 b (0 : Fin 1) (0 : Fin 1)) = Ideal.sin (turn (x1 (ix2 b (0 : Fin 1)))) := by
  unfold k0_pay3
  refine (shapeCast_apply _ _ (ix3 b (0 : Fin 1) (0 : Fin 1)) (ix2 b (0 : Fin 1)) ?_).trans ?_
  · rewrite [Shape.rowMajor_val_two, Shape.rowMajor_val_three]
    show b.val * 1 + 0 = (b.val * 1 + 0) * 1 + 0
    omega
  · show Ideal.sin (k0_pay1 x1 (ix2 b (0 : Fin 1))) = _
    rw [angle_apply]

/-- A 64 × 1 × 1 column laid along the 300 × 25 points reads the column at the sample. -/
theorem lay_apply {α : Type} (w : S64x1x1.Idx → α) (b : Fin 64) (r : Fin 300) (v : Fin 25) :
    broadcastTo S64x300x25 w Gen.broadcasts_S64x1x1_S64x300x25 (ix3 b r v) = w (ix3 b (0 : Fin 1) (0 : Fin 1)) :=
  broadcastTo_apply w _ (ix3 b r v) (ix3 b (0 : Fin 1) (0 : Fin 1)) (fun a => match a with
    | ⟨0, _⟩ => by show b.val = if (64 : Nat) = 1 then 0 else b.val; rw [if_neg (by decide)]
    | ⟨1, _⟩ => by show 0 = if (1 : Nat) = 1 then 0 else r.val; rw [if_pos rfl]
    | ⟨2, _⟩ => by show 0 = if (1 : Nat) = 1 then 0 else v.val; rw [if_pos rfl])

/-! ## The three channels of the tile -/

/-- The 64 × 300 × 25 array with its unit channel axis restored reads the same entry. -/
theorem rowMajor_unit (b : Fin 64) (r : Fin 300) (v : Fin 25) :
    (S64x1x300x25.rowMajor (ix4 b (0 : Fin 1) r v)).val = (S64x300x25.rowMajor (ix3 b r v)).val := by
  rewrite [Shape.rowMajor_val_four, Shape.rowMajor_val_three]
  show ((b.val * 1 + 0) * 300 + r.val) * 25 + v.val = (b.val * 300 + r.val) * 25 + v.val
  omega

/-- Channel `k` of the tile: the slice of extent one from `k` along the channel axis, at `(b, 0, r, v)`. -/
theorem slab_apply (k : Fin 3) (h : S64x3x300x25.Slices ![0, k.val, 0, 0] S64x1x300x25) (b : Fin 64) (r : Fin 300) (v : Fin 25) :
    extractStridedSlice S64x1x300x25 ![0, k.val, 0, 0] x0 h (ix4 b (0 : Fin 1) r v) = x0 (ix4 b k r v) :=
  extractStridedSlice_apply _ x0 h (ix4 b (0 : Fin 1) r v) (ix4 b k r v) (fun a => match a with
    | ⟨0, _⟩ => by show b.val = 0 + b.val; omega
    | ⟨1, _⟩ => by show k.val = k.val + 0; omega
    | ⟨2, _⟩ => by show r.val = 0 + r.val; omega
    | ⟨3, _⟩ => by show v.val = 0 + v.val; omega)

/-- Channel 0 with its unit axis dropped. -/
theorem p0_apply (b : Fin 64) (r : Fin 300) (v : Fin 25) : k0_pay4 x0 (ix3 b r v) = x0 (ix4 b (0 : Fin 3) r v) := by
  unfold k0_pay4
  refine (shapeCast_apply _ _ (ix3 b r v) (ix4 b (0 : Fin 1) r v) (rowMajor_unit b r v)).trans ?_
  exact slab_apply x0 (0 : Fin 3) _ b r v

/-- Channel 1 with its unit axis dropped. -/
theorem p1_apply (b : Fin 64) (r : Fin 300) (v : Fin 25) : k0_pay5 x0 (ix3 b r v) = x0 (ix4 b (1 : Fin 3) r v) := by
  unfold k0_pay5
  refine (shapeCast_apply _ _ (ix3 b r v) (ix4 b (0 : Fin 1) r v) (rowMajor_unit b r v)).trans ?_
  exact slab_apply x0 (1 : Fin 3) _ b r v

/-! ## The three stored values -/

/-- The first store: `p₀·c + p₁·s`, coordinate 0 of the turned point. -/
theorem first_apply (b : Fin 64) (r : Fin 300) (v : Fin 25) :
    k0_pay6 x1 x0 (ix4 b (0 : Fin 1) r v)
      = rotated (x0 (ix4 b (0 : Fin 3) r v)) (x0 (ix4 b (1 : Fin 3) r v)) (x0 (ix4 b (2 : Fin 3) r v))
          (turn (x1 (ix2 b (0 : Fin 1)))) 0 := by
  unfold k0_pay6
  refine (shapeCast_apply _ _ (ix4 b (0 : Fin 1) r v) (ix3 b r v) (rowMajor_unit b r v).symm).trans ?_
  show k0_pay4 x0 (ix3 b r v) * broadcastTo S64x300x25 (k0_pay2 x1) _ (ix3 b r v)
      + k0_pay5 x0 (ix3 b r v) * broadcastTo S64x300x25 (k0_pay3 x1) _ (ix3 b r v) = _
  rw [lay_apply, lay_apply, p0_apply, p1_apply, cos_apply, sin_apply]
  rfl

/-- The second store: `(0 − p₀)·s + p₁·c`, which is `(−p₀)·s + p₁·c`: coordinate 1 of the turned point. -/
theorem second_apply (b : Fin 64) (r : Fin 300) (v : Fin 25) :
    k0_pay7 x1 x0 (ix4 b (0 : Fin 1) r v)
      = rotated (x0 (ix4 b (0 : Fin 3) r v)) (x0 (ix4 b (1 : Fin 3) r v)) (x0 (ix4 b (2 : Fin 3) r v))
          (turn (x1 (ix2 b (0 : Fin 1)))) 1 := by
  unfold k0_pay7
  refine (shapeCast_apply _ _ (ix4 b (0 : Fin 1) r v) (ix3 b r v) (rowMajor_unit b r v).symm).trans ?_
  show (Ideal.ofBits .f32 0x00000000#32 - k0_pay4 x0 (ix3 b r v)) * broadcastTo S64x300x25 (k0_pay3 x1) _ (ix3 b r v)
      + k0_pay5 x0 (ix3 b r v) * broadcastTo S64x300x25 (k0_pay2 x1) _ (ix3 b r v) = _
  rw [lay_apply, lay_apply, p0_apply, p1_apply, cos_apply, sin_apply, Ideal.ofBits_zero_f32, zero_sub]
  rfl

/-- The third store: channel 2 as it is. -/
theorem third_apply (b : Fin 64) (r : Fin 300) (v : Fin 25) :
    k0_pay8 x0 (ix4 b (0 : Fin 1) r v) = x0 (ix4 b (2 : Fin 3) r v) := by
  unfold k0_pay8
  refine (congrFun (shapeCast_shapeCast _ _ _) _).trans ?_
  exact slab_apply x0 (2 : Fin 3) _ b r v

/-! ## The two tiles -/

/-- The slab of channel `k` of the output tile holds, at its own `(b, 0, r, v)`, the tile's entry `(b, k, r, v)`. -/
theorem slab_emb (k : Fin 3) (inb : ∀ a, (![0, k.val, 0, 0] : Fin 4 → Nat) a + S64x1x300x25.size a ≤ S64x3x300x25.size a)
    (b : Fin 64) (r : Fin 300) (v : Fin 25) :
    (Rect.unit (s := S64x3x300x25) ![0, k.val, 0, 0] S64x1x300x25.size inb).emb (ix4 b (0 : Fin 1) r v) = ix4 b k r v :=
  funext fun a => Fin.ext (match a with
    | ⟨0, _⟩ => by show 0 + 1 * b.val = b.val; omega
    | ⟨1, _⟩ => by show k.val + 1 * 0 = k.val; omega
    | ⟨2, _⟩ => by show 0 + 1 * r.val = r.val; omega
    | ⟨3, _⟩ => by show 0 + 1 * v.val = v.val; omega)

/-- THE OUTPUT TILE the body leaves is the tile of samples, each turned by its own angle. -/
theorem tile_eq : out0_2 x0 x1 = rotatedBatch (B := 64) x0 (fun b => turn (x1 (ix2 b (0 : Fin 1)))) := by
  funext y
  unfold out0_2
  refine View.canon_apply_of_pieces _ _ ?_ y (cover0_2 _ _ _ y)
  intro p hp z
  simp only [List.mem_cons, List.mem_nil_iff, or_false] at hp
  rcases hp with rfl | rfl | rfl
  · obtain ⟨b, u, r, v, rfl⟩ : ∃ (b : Fin 64) (u : Fin 1) (r : Fin 300) (v : Fin 25), z = ix4 b u r v :=
      ⟨z 0, z 1, z 2, z 3, eq_ix4 z⟩
    obtain rfl : u = 0 := Subsingleton.elim _ _
    show k0_pay8 (View.ld x0 r0_1) (ix4 b (0 : Fin 1) r v) = rotatedBatch (B := 64) x0 _ (r0_4.emb (ix4 b (0 : Fin 1) r v))
    rw [show r0_4.emb (ix4 b (0 : Fin 1) r v) = ix4 b (2 : Fin 3) r v from slab_emb (2 : Fin 3) _ b r v, rotatedBatch_apply, View.ld_unit_zero (S := S64x3x300x25) zeros4, third_apply]
    rfl
  · obtain ⟨b, u, r, v, rfl⟩ : ∃ (b : Fin 64) (u : Fin 1) (r : Fin 300) (v : Fin 25), z = ix4 b u r v :=
      ⟨z 0, z 1, z 2, z 3, eq_ix4 z⟩
    obtain rfl : u = 0 := Subsingleton.elim _ _
    show k0_pay7 (View.ld x1 r0_0) (View.ld x0 r0_1) (ix4 b (0 : Fin 1) r v)
      = rotatedBatch (B := 64) x0 _ (r0_3.emb (ix4 b (0 : Fin 1) r v))
    rw [show r0_3.emb (ix4 b (0 : Fin 1) r v) = ix4 b (1 : Fin 3) r v from slab_emb (1 : Fin 3) _ b r v, rotatedBatch_apply, View.ld_unit_zero (S := S64x3x300x25) zeros4,
      View.ld_unit_zero (S := S64x1) zeros2, second_apply]
    rfl
  · obtain ⟨b, u, r, v, rfl⟩ : ∃ (b : Fin 64) (u : Fin 1) (r : Fin 300) (v : Fin 25), z = ix4 b u r v :=
      ⟨z 0, z 1, z 2, z 3, eq_ix4 z⟩
    obtain rfl : u = 0 := Subsingleton.elim _ _
    show k0_pay6 (View.ld x1 r0_0) (View.ld x0 r0_1) (ix4 b (0 : Fin 1) r v)
      = rotatedBatch (B := 64) x0 _ (r0_2.emb (ix4 b (0 : Fin 1) r v))
    rw [show r0_2.emb (ix4 b (0 : Fin 1) r v) = ix4 b (0 : Fin 3) r v from slab_emb (0 : Fin 3) _ b r v, rotatedBatch_apply, View.ld_unit_zero (S := S64x3x300x25) zeros4,
      View.ld_unit_zero (S := S64x1) zeros2, first_apply]
    rfl

/-- THE SECOND OUTPUT TILE the body leaves is the tile of the samples' angles. -/
theorem angles_tile_eq : out0_3 x0 x1 = fun y => turn (x1 y) := by
  unfold out0_3
  rw [View.canon_unit_zero zeros2]
  simp only [View.ld_unit_zero (S := S64x1) zeros2]
  funext y
  exact angle_apply x1 y

end Cert.KernelIdeal.BodyValue

end
-- ==== Proof.KernelValue.lean ====
/-
  What the kernel's two result arrays hold after its run.

  The grid has 32 points; point `t` works on samples `64·q … 64·q + 63`, where `q` is its block index: its two input
  tiles are those samples of the batch and of the fractions of a turn (the latter entered as a 2048 × 1 column, the host's
  reshape of the 2048 fractions), and its two output tiles go back to the same samples of the two result arrays. So the
  tile a point writes back is that point's tile of ONE function of the whole arrays — the batch with every sample turned
  by its own angle, and the column of the angles — and since the 32 tiles cover all 2048 samples, the arrays end holding
  those functions. After the region the host reshapes the column of angles back into 2048 numbers.
-/
import proofs.«180987_j38079180046915_1_alg».proof.Proof.BodyValue
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.RotationZ

variable (m : (ℓ : Loc nD τ sig) → Buf (Elt Ideal) ℓ) (ρ : Dev nD → PrngReg)

/-! ## Where each point's tiles sit -/

/-- The printed index maps, decided over the 32 points: all four windows are at the same block of samples, at block 0 on
    every other axis, and the block of samples is below 32. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 2) = win0_2.index t (0 : Fin 4) ∧ win0_1.index t (1 : Fin 2) = 0
    ∧ win0_2.index t (1 : Fin 4) = 0 ∧ win0_2.index t (2 : Fin 4) = 0 ∧ win0_2.index t (3 : Fin 4) = 0
    ∧ win0_3.index t (0 : Fin 2) = win0_2.index t (0 : Fin 4) ∧ win0_3.index t (1 : Fin 2) = 0
    ∧ win0_2.index t (0 : Fin 4) < 32 :=
  (by decide +kernel : ∀ t : Fin grid0.N, _)

/-- Every block of samples is some point's. -/
theorem idx_onto : ∀ q : Fin 32, ∃ t : Fin cfg0.N, win0_2.index t (0 : Fin 4) = q.val :=
  (by decide +kernel : ∀ q : Fin 32, ∃ t : Fin grid0.N, win0_2.index t (0 : Fin 4) = q.val)

/-- The batch tile of point `t` reads the batch as the region finds it, `64·q` samples further on. -/
theorem batch_tile_apply (c : Dev nD) (t : Fin cfg0.N) (y : S64x3x300x25.Idx) (i : S2048x3x300x25.Idx)
    (h0 : (i 0).val = win0_2.index t (0 : Fin 4) * 64 + (y 0).val) (h1 : (i 1).val = (y 1).val)
    (h2 : (i 2).val = (y 2).val) (h3 : (i 3).val = (y 3).val) :
    iblk m c 0 t y = V m c main_arg0 i := by
  obtain ⟨e00, e01, e02, e03, -⟩ := idx_facts t
  show V m c main_arg0 (((cfg0.win 0).blk t).view.emb y) = V m c main_arg0 i
  refine congrArg _ (funext fun a => Fin.ext ?_)
  match a with
  | ⟨0, _⟩ => show win0_0.index t (0 : Fin 4) * 64 + 1 * (y 0).val = (i 0).val; omega
  | ⟨1, _⟩ => show win0_0.index t (1 : Fin 4) * 3 + 1 * (y 1).val = (i 1).val; omega
  | ⟨2, _⟩ => show win0_0.index t (2 : Fin 4) * 300 + 1 * (y 2).val = (i 2).val; omega
  | ⟨3, _⟩ => show win0_0.index t (3 : Fin 4) * 25 + 1 * (y 3).val = (i 3).val; omega

/-- The tile of fractions of point `t` reads the column as the region finds it, `64·q` samples further on. -/
theorem fraction_tile_apply (c : Dev nD) (t : Fin cfg0.N) (y : S64x1.Idx) (i : S2048x1.Idx)
    (h0 : (i 0).val = win0_2.index t (0 : Fin 4) * 64 + (y 0).val) (h1 : (i 1).val = (y 1).val) :
    iblk m c 1 t y = V m c main_v0 i := by
  obtain ⟨-, -, -, -, e10, e11, -⟩ := idx_facts t
  show V m c main_v0 (((cfg0.win 1).blk t).view.emb y) = V m c main_v0 i
  refine congrArg _ (funext fun a => Fin.ext ?_)
  match a with
  | ⟨0, _⟩ => show win0_1.index t (0 : Fin 2) * 64 + 1 * (y 0).val = (i 0).val; omega
  | ⟨1, _⟩ => show win0_1.index t (1 : Fin 2) * 1 + 1 * (y 1).val = (i 1).val; omega

/-! ## The turned batch -/

/-- WHAT POINT `t` WRITES BACK to the first result is its tile of the batch, as the region finds it, with every sample
    turned by its angle. -/
theorem flushed_batch (c : Dev nD) (t : Fin cfg0.N) :
    (dats m 0 c).flushed 2 t = ((cfg0.win 2).blk t).view.read (Elt Ideal)
      (rotatedBatch (B := 2048) (V m c main_arg0) (fun b => turn (V m c main_v0 (ix2 b (0 : Fin 1))))) := by
  show (cfg0.win 2).cut (grid0.coords t) ((dats m 0 c).after 2 t) = _
  rw [after0_2, BodyValue.tile_eq]
  obtain ⟨-, -, -, -, -, -, e21, e22, e23, -⟩ := idx_facts t
  funext j
  show rotatedBatch (B := 64) (iblk m c 0 t) (fun b => turn (iblk m c 1 t (ix2 b (0 : Fin 1)))) j
    = rotatedBatch (B := 2048) (V m c main_arg0) (fun b => turn (V m c main_v0 (ix2 b (0 : Fin 1))))
        (((cfg0.win 2).blk t).view.emb j)
  unfold rotatedBatch
  have k0 : ((((cfg0.win 2).blk t).view.emb j) 0).val = win0_2.index t (0 : Fin 4) * 64 + (j 0).val := by
    show win0_2.index t (0 : Fin 4) * 64 + 1 * (j 0).val = _; omega
  have k1 : ((((cfg0.win 2).blk t).view.emb j) 1).val = (j 1).val := by
    show win0_2.index t (1 : Fin 4) * 3 + 1 * (j 1).val = _; omega
  have k2 : ((((cfg0.win 2).blk t).view.emb j) 2).val = (j 2).val := by
    show win0_2.index t (2 : Fin 4) * 300 + 1 * (j 2).val = _; omega
  have k3 : ((((cfg0.win 2).blk t).view.emb j) 3).val = (j 3).val := by
    show win0_2.index t (3 : Fin 4) * 25 + 1 * (j 3).val = _; omega
  refine rotated_congr ?_ ?_ ?_ ?_ k1.symm
  · exact batch_tile_apply m c t _ _ k0 rfl k2 k3
  · exact batch_tile_apply m c t _ _ k0 rfl k2 k3
  · exact batch_tile_apply m c t _ _ k0 rfl k2 k3
  · exact congrArg turn (fraction_tile_apply m c t _ _ k0 rfl)

/-- An index of the first result is in point `t`'s tile iff each coordinate is in the tile's range on its axis. -/
theorem mem_batch_tile (t : Fin cfg0.N) (i : S2048x3x300x25.Idx) :
    i ∈ ((cfg0.win 2).blk t).view.set ↔ ∀ a : Fin 4, win0_2.index t a * S64x3x300x25.size a ≤ (i a).val
      ∧ (i a).val < win0_2.index t a * S64x3x300x25.size a + S64x3x300x25.size a := by
  show i ∈ ((View.whole main_v1_0).slice (win0_2.rect t)).set ↔ _
  rw [View.set_slice_whole, Rect.mem_set_unit]
  exact Iff.rfl

/-- Every entry of the first result is in the tile of the point whose block holds its sample. -/
theorem cover_batch (i : S2048x3x300x25.Idx) :
    ∃ t : Fin cfg0.N, (cfg0.win 2).flush t = true ∧ i ∈ ((cfg0.win 2).blk t).view.set := by
  have h0 : (i 0).val < 2048 := (i 0).isLt
  have h1 : (i 1).val < 3 := (i 1).isLt
  have h2 : (i 2).val < 300 := (i 2).isLt
  have h3 : (i 3).val < 25 := (i 3).isLt
  obtain ⟨t, q0⟩ := idx_onto ⟨(i 0).val / 64, by omega⟩
  have q0' : win0_2.index t (0 : Fin 4) = (i 0).val / 64 := q0
  obtain ⟨-, -, -, -, -, -, e21, e22, e23, -⟩ := idx_facts t
  refine ⟨t, flush0_2 t, ?_⟩
  rw [mem_batch_tile]
  intro a
  match a with
  | ⟨0, _⟩ => show win0_2.index t (0 : Fin 4) * 64 ≤ (i 0).val ∧ (i 0).val < win0_2.index t (0 : Fin 4) * 64 + 64; omega
  | ⟨1, _⟩ => show win0_2.index t (1 : Fin 4) * 3 ≤ (i 1).val ∧ (i 1).val < win0_2.index t (1 : Fin 4) * 3 + 3; omega
  | ⟨2, _⟩ => show win0_2.index t (2 : Fin 4) * 300 ≤ (i 2).val ∧ (i 2).val < win0_2.index t (2 : Fin 4) * 300 + 300; omega
  | ⟨3, _⟩ => show win0_2.index t (3 : Fin 4) * 25 ≤ (i 3).val ∧ (i 3).val < win0_2.index t (3 : Fin 4) * 25 + 25; omega

/-- THE FIRST RESULT after the region: the batch as the region finds it, every sample turned by its angle. -/
theorem final_batch (c : Dev nD) : (dats m 0 c).arrAt 2 cfg0.N
    = rotatedBatch (B := 2048) (V m c main_arg0) (fun b => turn (V m c main_v0 (ix2 b (0 : Fin 1)))) :=
  (dats m 0 c).arrAt_eq_of_cover 2 _ (fun t _ => flushed_batch m c t) cover_batch

/-! ## The column of angles -/

/-- WHAT POINT `t` WRITES BACK to the second window is its tile of the column of angles. -/
theorem flushed_angles (c : Dev nD) (t : Fin cfg0.N) :
    (dats m 0 c).flushed 3 t = ((cfg0.win 3).blk t).view.read (Elt Ideal) (fun i => turn (V m c main_v0 i)) := by
  show (cfg0.win 3).cut (grid0.coords t) ((dats m 0 c).after 3 t) = _
  rw [after0_3, BodyValue.angles_tile_eq]
  obtain ⟨-, -, -, -, e10, e11, -, -, -, e30, e31, -⟩ := idx_facts t
  funext j
  show turn (V m c main_v0 (((cfg0.win 1).blk t).view.emb j)) = turn (V m c main_v0 (((cfg0.win 3).blk t).view.emb j))
  have h : ((cfg0.win 1).blk t).view.emb j = ((cfg0.win 3).blk t).view.emb j := by
    funext a; apply Fin.ext
    match a with
    | ⟨0, _⟩ => show win0_1.index t (0 : Fin 2) * 64 + 1 * (j 0).val = win0_3.index t (0 : Fin 2) * 64 + 1 * (j 0).val; omega
    | ⟨1, _⟩ => show win0_1.index t (1 : Fin 2) * 1 + 1 * (j 1).val = win0_3.index t (1 : Fin 2) * 1 + 1 * (j 1).val; omega
  rw [h]

theorem mem_angles_tile (t : Fin cfg0.N) (i : S2048x1.Idx) :
    i ∈ ((cfg0.win 3).blk t).view.set ↔ ∀ a : Fin 2, win0_3.index t a * S64x1.size a ≤ (i a).val
      ∧ (i a).val < win0_3.index t a * S64x1.size a + S64x1.size a := by
  show i ∈ ((View.whole main_v1_1).slice (win0_3.rect t)).set ↔ _
  rw [View.set_slice_whole, Rect.mem_set_unit]
  exact Iff.rfl

theorem cover_angles (i : S2048x1.Idx) :
    ∃ t : Fin cfg0.N, (cfg0.win 3).flush t = true ∧ i ∈ ((cfg0.win 3).blk t).view.set := by
  have h0 : (i 0).val < 2048 := (i 0).isLt
  have h1 : (i 1).val < 1 := (i 1).isLt
  obtain ⟨t, q0⟩ := idx_onto ⟨(i 0).val / 64, by omega⟩
  have q0' : win0_2.index t (0 : Fin 4) = (i 0).val / 64 := q0
  obtain ⟨-, -, -, -, -, -, -, -, -, e30, e31, -⟩ := idx_facts t
  refine ⟨t, flush0_3 t, ?_⟩
  rw [mem_angles_tile]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 1 ≤ (i 1).val ∧ (i 1).val < win0_3.index t (1 : Fin 2) * 1 + 1; omega

/-- THE COLUMN OF ANGLES after the region. -/
theorem final_angles (c : Dev nD) : (dats m 0 c).arrAt 3 cfg0.N = fun i => turn (V m c main_v0 i) :=
  (dats m 0 c).arrAt_eq_of_cover 3 _ (fun t _ => flushed_angles m c t) cover_angles

/-! ## The host's reshapes before and after the region -/

/-- The column the region finds is the host's reshape of the 2048 fractions of a turn. -/
theorem entry_column (c : Dev nD) :
    (V m c main_v0 : S2048x1.Idx → Elt Ideal .f32)
      = shapeCast S2048x1 (m ((c : Thread nD τ).loc main_arg1)) Gen.shapeCasts_S2048_S2048x1 := by
  show StableHlo.after hostOps0 (fun b => m (c, b)) (Proc.devRef .tc main_v0) = _
  after_results
  rfl

/-- A 2048 × 1 column read at `(b, 0)` is the 2048 numbers it was reshaped from, read at `b`. -/
theorem column_apply (A : S2048.Idx → Elt Ideal .f32) (b : Fin 2048) :
    shapeCast S2048x1 A Gen.shapeCasts_S2048_S2048x1 (ix2 b (0 : Fin 1)) = A (ix1 b) :=
  shapeCast_apply A _ (ix2 b (0 : Fin 1)) (ix1 b) (by
    rewrite [Shape.rowMajor_val_one, Shape.rowMajor_val_two]
    show b.val = b.val * 1 + 0
    omega)

/-- And the column reshaped back into 2048 numbers reads, at `b`, the column at `(b, 0)`. -/
theorem uncolumn_apply (A : S2048x1.Idx → Elt Ideal .f32) (b : Fin 2048) :
    shapeCast S2048 A Gen.shapeCasts_S2048x1_S2048 (ix1 b) = A (ix2 b (0 : Fin 1)) :=
  shapeCast_apply A _ (ix1 b) (ix2 b (0 : Fin 1)) (by
    rewrite [Shape.rowMajor_val_one, Shape.rowMajor_val_two]
    show b.val * 1 + 0 = b.val
    omega)

/-- The angle the region computes for sample `b`, from the fractions of a turn as launched. -/
theorem entry_angle (c : Dev nD) (b : Fin 2048) :
    turn (V m c main_v0 (ix2 b (0 : Fin 1))) = turn (m ((c : Thread nD τ).loc main_arg1) (ix1 b)) := by
  rw [entry_column, column_apply]

/-! ## The two results, and the run -/

/-- THE SECOND RESULT: the host's reshape, after the region, of the column of angles. -/
theorem tail_angles (c : Dev nD) :
    Pipeline.afterTail₀ cfgs (dats m) 0 (V0 m) [hostOps1] c main_v2
      = fun i => turn (m ((c : Thread nD τ).loc main_arg1) i) := by
  unfold Pipeline.afterTail₀
  show StableHlo.after hostOps1 _ (Proc.devRef .tc main_v2) = _
  after_results
  funext i
  obtain ⟨b, rfl⟩ : ∃ b : Fin 2048, i = ix1 b := ⟨i 0, eq_ix1 i⟩
  show shapeCast S2048 (Pipeline.withArrays spec0 c (V0 m c) (fun w => (dats m 0 c).arrAt w cfg0.N)
      (Proc.devRef .tc main_v1_1)) Gen.shapeCasts_S2048x1_S2048 (ix1 b) = _
  refine (uncolumn_apply _ b).trans ?_
  refine (congrFun (Pipeline.withArrays_arr spec0 launch0.win.arr_inj c _ _ 3) (ix2 b (0 : Fin 1))).trans ?_
  rw [final_angles]
  exact entry_angle m c b

/-- THE FIRST RESULT in terms of the arrays as launched. -/
theorem result_batch (c : Dev nD) : (dats m 0 c).arrAt 2 cfg0.N
    = rotatedBatch (B := 2048) (m ((c : Thread nD τ).loc main_arg0))
        (fun b => turn (m ((c : Thread nD τ).loc main_arg1) (ix1 b))) := by
  rw [final_batch, V_main_arg0]
  exact congrArg _ (funext fun b => entry_angle m c b)

/-- THE KERNEL'S RUN. -/
theorem run : θ_run defs (onTc (τ := τ) (main (F := Ideal))) ⟨m, fun _ => 0, ρ⟩ fun r => ∀ c : Dev nD,
      r.2.mem ((c : Thread nD τ).loc main_v1_0)
        = rotatedBatch (B := 2048) (m ((c : Thread nD τ).loc main_arg0))
            (fun b => turn (m ((c : Thread nD τ).loc main_arg1) (ix1 b)))
      ∧ r.2.mem ((c : Thread nD τ).loc main_v2) = (fun i => turn (m ((c : Thread nD τ).loc main_arg1) i))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (result_batch m c),
      ((h c).2 main_v2 (Pipeline.mem_restRefs_of main_v2 (by decide) (by decide))).trans (tail_angles m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelValue

end
-- ==== Proof.ReferenceValue.lean ====
/-
  What the reference computes, entry by entry.

  The reference multiplies each sample's fraction of a turn by the single-precision 2π, takes the cosine and the sine,
  and lays each along the 300 × 25 points of its sample; it cuts the batch into its three channels `p₀, p₁, p₂`
  (a slice of extent one along the channel axis, the unit axis dropped), forms `p₀·c + p₁·s` and `(−p₀)·s + p₁·c`,
  gives each of the three results its unit channel axis back and joins them along that axis. Read at the entry
  `(b, k, r, v)`, the joined array is piece `k` at `(b, 0, r, v)`, and each piece is one coordinate of the point
  `(r, v)` of sample `b` turned by that sample's angle: the reference's result is the turned batch.
-/
import proofs.«180987_j38079180046915_1_alg».proof.Proof.Gen.ReferenceIdeal.Read
import proofs.«180987_j38079180046915_1_alg».proof.Proof.RotationZ
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.RotationZ

variable (x0 : (⟨S2048x3x300x25, .f32⟩ : BufTy).Contents (Elt Ideal)) (x1 : (⟨S2048, .f32⟩ : BufTy).Contents (Elt Ideal))

/-! ## The angle, its cosine and its sine -/

/-- Sample `b`'s angle: its fraction of a turn times the single-precision 2π. -/
theorem angle_apply (b : Fin 2048) : val_main_v1 (F := Ideal) x1 (ix1 b) = turn (x1 (ix1 b)) := by
  rw [val_main_v1_apply, val_main_v0_apply, val_main_cst_apply]
  rfl

/-- The cosine of sample `b`'s angle, laid along the sample's points. -/
theorem cos_apply (b : Fin 2048) (r : Fin 300) (v : Fin 25) :
    val_main_v12 (F := Ideal) x1 (ix3 b r v) = Ideal.cos (turn (x1 (ix1 b))) := by
  rw [val_main_v12_apply, val_main_v3_apply, val_main_v2_apply]
  have e : idx_main_v3 (idx_main_v12 (ix3 b r v)) = ix1 b := funext fun a => match a with | ⟨0, _⟩ => rfl
  rw [e, angle_apply]
  rfl

/-- The sine of sample `b`'s angle, laid along the sample's points. -/
theorem sin_apply (b : Fin 2048) (r : Fin 300) (v : Fin 25) :
    val_main_v14 (F := Ideal) x1 (ix3 b r v) = Ideal.sin (turn (x1 (ix1 b))) := by
  rw [val_main_v14_apply, val_main_v5_apply, val_main_v4_apply]
  have e : idx_main_v5 (idx_main_v14 (ix3 b r v)) = ix1 b := funext fun a => match a with | ⟨0, _⟩ => rfl
  rw [e, angle_apply]
  rfl

/-- The second row of the rotation lays the same sine and cosine again. -/
theorem sin_again : val_main_v18 (F := Ideal) x1 = val_main_v14 (F := Ideal) x1 := rfl
theorem cos_again : val_main_v20 (F := Ideal) x1 = val_main_v12 (F := Ideal) x1 := rfl

/-! ## The three channels -/

/-- Channel 0 of the batch, its unit axis dropped, at point `(r, v)` of sample `b`. -/
theorem p0_apply (b : Fin 2048) (r : Fin 300) (v : Fin 25) :
    val_main_v7 (F := Ideal) x0 (ix3 b r v) = x0 (ix4 b (0 : Fin 3) r v) := by
  rw [val_main_v7_apply, val_main_v6_apply]
  refine congrArg x0 (funext fun a => Fin.ext ?_)
  have hb := b.isLt; have hr := r.isLt; have hv := v.isLt
  match a with
  | ⟨0, _⟩ => show ((b.val * 300 + r.val) * 25 + v.val) / 7500 = b.val; omega
  | ⟨1, _⟩ => rfl
  | ⟨2, _⟩ => show ((b.val * 300 + r.val) * 25 + v.val) / 25 % 300 = r.val; omega
  | ⟨3, _⟩ => show ((b.val * 300 + r.val) * 25 + v.val) % 25 = v.val; omega

/-- Channel 1. -/
theorem p1_apply (b : Fin 2048) (r : Fin 300) (v : Fin 25) :
    val_main_v9 (F := Ideal) x0 (ix3 b r v) = x0 (ix4 b (1 : Fin 3) r v) := by
  rw [val_main_v9_apply, val_main_v8_apply]
  refine congrArg x0 (funext fun a => Fin.ext ?_)
  have hb := b.isLt; have hr := r.isLt; have hv := v.isLt
  match a with
  | ⟨0, _⟩ => show ((b.val * 300 + r.val) * 25 + v.val) / 7500 = b.val; omega
  | ⟨1, _⟩ => rfl
  | ⟨2, _⟩ => show ((b.val * 300 + r.val) * 25 + v.val) / 25 % 300 = r.val; omega
  | ⟨3, _⟩ => show ((b.val * 300 + r.val) * 25 + v.val) % 25 = v.val; omega

/-- Channel 2. -/
theorem p2_apply (b : Fin 2048) (r : Fin 300) (v : Fin 25) :
    val_main_v11 (F := Ideal) x0 (ix3 b r v) = x0 (ix4 b (2 : Fin 3) r v) := by
  rw [val_main_v11_apply, val_main_v10_apply]
  refine congrArg x0 (funext fun a => Fin.ext ?_)
  have hb := b.isLt; have hr := r.isLt; have hv := v.isLt
  match a with
  | ⟨0, _⟩ => show ((b.val * 300 + r.val) * 25 + v.val) / 7500 = b.val; omega
  | ⟨1, _⟩ => rfl
  | ⟨2, _⟩ => show ((b.val * 300 + r.val) * 25 + v.val) / 25 % 300 = r.val; omega
  | ⟨3, _⟩ => show ((b.val * 300 + r.val) * 25 + v.val) % 25 = v.val; omega

/-! ## The three turned coordinates -/

/-- `p₀·c + p₁·s`: coordinate 0 of the turned point. -/
theorem first_apply (b : Fin 2048) (r : Fin 300) (v : Fin 25) :
    val_main_v16 (F := Ideal) x0 x1 (ix3 b r v)
      = rotated (x0 (ix4 b (0 : Fin 3) r v)) (x0 (ix4 b (1 : Fin 3) r v)) (x0 (ix4 b (2 : Fin 3) r v)) (turn (x1 (ix1 b))) 0 := by
  rw [val_main_v16_apply, val_main_v13_apply, val_main_v15_apply, p0_apply, p1_apply, cos_apply, sin_apply]
  rfl

/-- `(−p₀)·s + p₁·c`: coordinate 1 of the turned point. -/
theorem second_apply (b : Fin 2048) (r : Fin 300) (v : Fin 25) :
    val_main_v22 (F := Ideal) x0 x1 (ix3 b r v)
      = rotated (x0 (ix4 b (0 : Fin 3) r v)) (x0 (ix4 b (1 : Fin 3) r v)) (x0 (ix4 b (2 : Fin 3) r v)) (turn (x1 (ix1 b))) 1 := by
  rw [val_main_v22_apply, val_main_v19_apply, val_main_v21_apply, val_main_v17_apply, sin_again, cos_again,
    p0_apply, p1_apply, cos_apply, sin_apply]
  rfl

/-! ## The pieces with their unit channel axis, and their join -/

theorem piece0_apply (b : Fin 2048) (r : Fin 300) (v : Fin 25) :
    val_main_v23 (F := Ideal) x0 x1 (ix4 b (0 : Fin 1) r v) = val_main_v16 (F := Ideal) x0 x1 (ix3 b r v) := by
  rw [val_main_v23_apply]
  exact congrArg _ (funext fun a => match a with | ⟨0, _⟩ => rfl | ⟨1, _⟩ => rfl | ⟨2, _⟩ => rfl)

theorem piece1_apply (b : Fin 2048) (r : Fin 300) (v : Fin 25) :
    val_main_v24 (F := Ideal) x0 x1 (ix4 b (0 : Fin 1) r v) = val_main_v22 (F := Ideal) x0 x1 (ix3 b r v) := by
  rw [val_main_v24_apply]
  exact congrArg _ (funext fun a => match a with | ⟨0, _⟩ => rfl | ⟨1, _⟩ => rfl | ⟨2, _⟩ => rfl)

theorem piece2_apply (b : Fin 2048) (r : Fin 300) (v : Fin 25) :
    val_main_v25 (F := Ideal) x0 (ix4 b (0 : Fin 1) r v) = val_main_v11 (F := Ideal) x0 (ix3 b r v) := by
  rw [val_main_v25_apply]
  exact congrArg _ (funext fun a => match a with | ⟨0, _⟩ => rfl | ⟨1, _⟩ => rfl | ⟨2, _⟩ => rfl)

/-- The joined array at `(b, k, r, v)` is piece `k` at `(b, 0, r, v)`: coordinate `k` of the turned point. -/
theorem joined_apply (b : Fin 2048) (k : Fin 3) (r : Fin 300) (v : Fin 25) :
    val_main_v26 (F := Ideal) x0 x1 (ix4 b k r v)
      = rotatedBatch x0 (fun b => turn (x1 (ix1 b))) (ix4 b k r v) := by
  rw [rotatedBatch_apply]
  unfold val_main_v26
  match k with
  | ⟨0, _⟩ =>
    refine (concatenate_apply_piece (1 : Fin 4) _ _ (ix4 b (0 : Fin 3) r v) 0 ?_ S2048x1x300x25 (val_main_v23 (F := Ideal) x0 x1) ?_ rfl 0 ?_
      (ix4 b (0 : Fin 1) r v) ?_ ?_).trans ?_
    · show (0 : Nat) < 3
      omega
    · rfl
    · rfl
    · intro a ha
      match a with
      | ⟨0, _⟩ => rfl
      | ⟨1, _⟩ => exact absurd rfl ha
      | ⟨2, _⟩ => rfl
      | ⟨3, _⟩ => rfl
    · rfl
    · rw [piece0_apply, first_apply]
  | ⟨1, _⟩ =>
    refine (concatenate_apply_piece (1 : Fin 4) _ _ (ix4 b (1 : Fin 3) r v) 1 ?_ S2048x1x300x25 (val_main_v24 (F := Ideal) x0 x1) ?_ rfl 1 ?_
      (ix4 b (0 : Fin 1) r v) ?_ ?_).trans ?_
    · show (1 : Nat) < 3
      omega
    · rfl
    · rfl
    · intro a ha
      match a with
      | ⟨0, _⟩ => rfl
      | ⟨1, _⟩ => exact absurd rfl ha
      | ⟨2, _⟩ => rfl
      | ⟨3, _⟩ => rfl
    · rfl
    · rw [piece1_apply, second_apply]
  | ⟨2, _⟩ =>
    refine (concatenate_apply_piece (1 : Fin 4) _ _ (ix4 b (2 : Fin 3) r v) 2 ?_ S2048x1x300x25 (val_main_v25 (F := Ideal) x0) ?_ rfl 2 ?_
      (ix4 b (0 : Fin 1) r v) ?_ ?_).trans ?_
    · show (2 : Nat) < 3
      omega
    · rfl
    · rfl
    · intro a ha
      match a with
      | ⟨0, _⟩ => rfl
      | ⟨1, _⟩ => exact absurd rfl ha
      | ⟨2, _⟩ => rfl
      | ⟨3, _⟩ => rfl
    · rfl
    · rw [piece2_apply, p2_apply]
      rfl

/-- THE REFERENCE'S FIRST RESULT is the batch with every sample turned by its angle. -/
theorem result_eq : val_main_v26 (F := Ideal) x0 x1 = rotatedBatch x0 (fun b => turn (x1 (ix1 b))) := by
  funext i
  obtain ⟨b, k, r, v, rfl⟩ : ∃ (b : Fin 2048) (k : Fin 3) (r : Fin 300) (v : Fin 25), i = ix4 b k r v :=
    ⟨i 0, i 1, i 2, i 3, eq_ix4 i⟩
  exact joined_apply x0 x1 b k r v

/-- THE REFERENCE'S SECOND RESULT is the samples' angles. -/
theorem angles_eq : val_main_v1 (F := Ideal) x1 = fun i => turn (x1 i) := by
  funext i
  obtain ⟨b, rfl⟩ : ∃ b : Fin 2048, i = ix1 b := ⟨i 0, eq_ix1 i⟩
  exact angle_apply x1 b

end Cert.ReferenceIdeal.RefValue

end
-- ==== Proof.lean ====
/-
  Rotation of a batch of point clouds about the third axis: the kernel against its reference, on the extended reals.

  The input is a batch of 2048 clouds of 300 × 25 points, channel by channel (2048 × 3 × 300 × 25), and for each sample a
  fraction `α` of a full turn. Both programs form the angle `θ = α · τ` (`τ` the same single-precision word for 2π in both),
  and return the batch with each point `(p₀, p₁, p₂)` replaced by `(p₀·cos θ + p₁·sin θ, −p₀·sin θ + p₁·cos θ, p₂)`,
  together with the 2048 angles.

  The kernel works on tiles of 64 samples at 32 grid points; the reference works on the whole arrays and joins the three
  result channels along the channel axis. The two texts differ in one spelling only: the kernel negates by `0 − p₀` where
  the reference negates, and `0 − p = −p` for every extended real — so the two results are one function of the arguments
  (Proof/RotationZ.lean) whatever the inputs, and the precondition is never opened. Proof/BodyValue.lean reads the tile
  the kernel body leaves, Proof/KernelValue.lean the arrays after the kernel's run, Proof/ReferenceValue.lean the
  reference's result; below, the five claims.
-/
import proofs.«180987_j38079180046915_1_alg».proof.Defs
import proofs.«180987_j38079180046915_1_alg».proof.Proof.Gen.Kernel
import proofs.«180987_j38079180046915_1_alg».proof.Proof.Gen.Kernel.Frame
import proofs.«180987_j38079180046915_1_alg».proof.Proof.Gen.KernelIdeal
import proofs.«180987_j38079180046915_1_alg».proof.Proof.Gen.KernelIdeal.Frame
import proofs.«180987_j38079180046915_1_alg».proof.Proof.Gen.ReferenceIdeal
import proofs.«180987_j38079180046915_1_alg».proof.Proof.Gen.ReferenceIdeal.Run
import proofs.«180987_j38079180046915_1_alg».proof.Proof.Gen.ReferenceIdeal.Read
import proofs.«180987_j38079180046915_1_alg».proof.Proof.Gen.Pre_finite_inputs
import proofs.«180987_j38079180046915_1_alg».proof.Proof.KernelValue
import proofs.«180987_j38079180046915_1_alg».proof.Proof.ReferenceValue
import Idealize.ShloMosaic.Adequacy
import Idealize.ShloMosaic.Init

noncomputable section

namespace Cert.Proof

open Idealize.ShloMosaic Idealize.SL.Sem Idealize.ShloMosaic.ValueIdx Cert.RotationZ

/-- The kernel as printed runs, faults nowhere and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- And the reference: its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => ⟨(h c).2.2.1, (h c).2.2.2⟩)
    (Cert.ReferenceIdeal.Value.run (F := Ideal) m ρ)

/-- From memories that agree on the batch and on the fractions of a turn, both programs end with the turned batch and the
    angles: the kernel's arrays after its run, and the reference's joined channels and product, are the same functions of
    the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v26_eq, Cert.ReferenceIdeal.RefValue.result_eq, (hagree c).1, (hagree c).2]
  · rw [(h c).2.1, Cert.ReferenceIdeal.Read.val_main_v1_eq, Cert.ReferenceIdeal.RefValue.angles_eq, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
